-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048x2048 .f32) (main_arg8 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S8192x2048 .f32) (main_arg1 : FVec F S8192x2048 .f32) (main_arg2 : FVec F S2048x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S1024x256 : Shape := ⟨2, ![1024, 256]⟩
abbrev S256x2048 : Shape := ⟨2, ![256, 2048]⟩
abbrev S1x256 : Shape := ⟨2, ![1, 256]⟩

abbrev nBuf : Space → Nat
  | .hbm => 19
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S8192x2048, .bf16⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S8192x2048, .f32⟩
  | .hbm, ⟨18, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x256, .f32⟩
  | .local _ .vmem, ⟨3, _⟩ => ⟨S1024x256, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x256, .f32⟩
  | .local _ .vmem, ⟨9, _⟩ => ⟨S1x256, .f32⟩
  | .local _ .vmem, ⟨10, _⟩ => ⟨S256x2048, .bf16⟩
  | .local _ .vmem, ⟨11, _⟩ => ⟨S256x2048, .bf16⟩
  | .local _ .vmem, ⟨12, _⟩ => ⟨S1x256, .f32⟩
  | .local _ .vmem, ⟨13, _⟩ => ⟨S1x256, .f32⟩
  | .local _ .vmem, ⟨14, _⟩ => ⟨S256x2048, .bf16⟩
  | .local _ .vmem, ⟨15, _⟩ => ⟨S256x2048, .bf16⟩
  | .local _ .vmem, ⟨16, _⟩ => ⟨S1x256, .f32⟩
  | .local _ .vmem, ⟨17, _⟩ => ⟨S1x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bitsLt_bf16_f32 : FTy.bits .bf16 < FTy.bits .f32
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x2048.size a
  hwx0_1 : ∀ i : grid0.Coords, EltTy.bits .f32 = 32 ∨ (Rect.block (s := S8192x2048) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .bf16 = 32 ∨ (Rect.block (s := S2048x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .bf16 = 32 ∨ (Rect.block (s := S2048x2048) S256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S8192x2048.size a
  hwx0_9 : ∀ i : grid0.Coords, EltTy.bits .f32 = 32 ∨ (Rect.block (s := S8192x2048) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S8192x2048.size a
  hwx0_10 : ∀ i : grid0.Coords, EltTy.bits .f32 = 32 ∨ (Rect.block (s := S8192x2048) S1024x256.size (cc0_transform_10 i) (hinb0_10 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S8192x2048, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.Spec.lean ====
/-
  The SRU cell as ONE function of its nine argument arrays, index by index, on the extended reals.

  With x : [8192, 2048] the input, c : [8192, 2048] the carried cell state, four weight matrices W : [2048, 2048]
  (one output row per unit) and three bias vectors b : [2048], entry (r, o) of the two results is

      f  = σ (⟨x r, W_f o⟩ + b_f o)                       the forget gate
      g  = σ (⟨x r, W_r o⟩ + b_r o)                       the reset gate
      c' = f · c (r, o) + (1 − f) · ⟨x r, W_x o⟩          the new cell state
      h  = g · tanh c' + (1 − g) · (⟨x r, W_c o⟩ + b_c o)  the new hidden state

  where ⟨u, w⟩ = ∑ k, u k · w k is the product of a row of x with a row of a weight matrix over the 2048 input features,
  σ t = 1 / (1 + e^(−t)) and tanh are the extended reals' logistic and hyperbolic tangent, and 1 is the value of the float
  literal 1.0. Entry (r, o) depends on row r of x, on row o of each weight matrix, on entry o of each bias and on entry
  (r, o) of c only: the scalar functions below take exactly those, so that the same terms serve a whole array and a tile.
-/
import Idealize.ShloMosaic.PureOps.Ideal
import Idealize.ShloMosaic.PureOps.Ideal.Laws
import Idealize.ShloMosaic.Lib.ValueIdx

noncomputable section

namespace Cert.Sru

open Idealize.ShloMosaic Idealize.ShloMosaic.ValueIdx

/-- What the float literal `1.0` denotes. -/
abbrev one : EReal := Ideal.ofBits .f32 0x3F800000#32

/-- It denotes the extended real `1`. -/
theorem one_eq : one = 1 := by
  show Ideal.ofBits .f32 0x3F800000#32 = 1
  simp [Ideal.ofBits, Ideal.ieee, -EReal.coe_mul]; norm_num

/-- The quotient `1 / (1 + e^(−t))` spelt with the literal `1.0` is the logistic function. -/
theorem div_one_add_exp_neg (t : EReal) : Ideal.div one (one + Ideal.exp (-t)) = Ideal.logistic t := by
  rw [one_eq]; rfl

/-- The product of two rows over the 2048 input features. -/
def dot (u w : Fin 2048 → EReal) : EReal := ∑ k : Fin 2048, u k * w k

/-- A gate: the logistic function of a row product plus a bias. -/
def gate (u w : Fin 2048 → EReal) (b : EReal) : EReal := Ideal.logistic (dot u w + b)

/-- The new cell state from a row `u` of the input, rows `wx`, `wf` of two weight matrices, the forget bias and the carried state. -/
def cell (u wx wf : Fin 2048 → EReal) (bf c : EReal) : EReal :=
  gate u wf bf * c + (one - gate u wf bf) * dot u wx

/-- The new hidden state likewise. -/
def hidden (u wx wf wr wc : Fin 2048 → EReal) (bf br bc c : EReal) : EReal :=
  gate u wr br * Ideal.tanh (cell u wx wf bf c) + (one - gate u wr br) * (dot u wc + bc)

abbrev SBN : Shape := ⟨2, ![8192, 2048]⟩
abbrev SNN : Shape := ⟨2, ![2048, 2048]⟩
abbrev SN : Shape := ⟨1, ![2048]⟩

/-- Row `r` of a matrix with 2048 columns. -/
abbrev row {n : Nat} (X : (⟨2, ![n, 2048]⟩ : Shape).Idx → EReal) (r : Fin n) : Fin 2048 → EReal := fun k => X (ix2 r k)

/-- The new cell state, the whole array. -/
def cellArr (x c : SBN.Idx → EReal) (Wx Wf : SNN.Idx → EReal) (bf : SN.Idx → EReal) : SBN.Idx → EReal :=
  fun i => cell (row x (i 0)) (row Wx (i 1)) (row Wf (i 1)) (bf (ix1 (i 1))) (c i)

/-- The new hidden state, the whole array. -/
def hiddenArr (x c : SBN.Idx → EReal) (Wx Wf : SNN.Idx → EReal) (bf : SN.Idx → EReal) (Wr : SNN.Idx → EReal) (br : SN.Idx → EReal)
    (Wc : SNN.Idx → EReal) (bc : SN.Idx → EReal) : SBN.Idx → EReal :=
  fun i => hidden (row x (i 0)) (row Wx (i 1)) (row Wf (i 1)) (row Wr (i 1)) (row Wc (i 1)) (bf (ix1 (i 1))) (br (ix1 (i 1))) (bc (ix1 (i 1))) (c i)

theorem cellArr_apply (x c : SBN.Idx → EReal) (Wx Wf : SNN.Idx → EReal) (bf : SN.Idx → EReal) (r : Fin 8192) (o : Fin 2048) :
    cellArr x c Wx Wf bf (ix2 r o) = cell (row x r) (row Wx o) (row Wf o) (bf (ix1 o)) (c (ix2 r o)) := rfl

theorem hiddenArr_apply (x c : SBN.Idx → EReal) (Wx Wf : SNN.Idx → EReal) (bf : SN.Idx → EReal) (Wr : SNN.Idx → EReal) (br : SN.Idx → EReal)
    (Wc : SNN.Idx → EReal) (bc : SN.Idx → EReal) (r : Fin 8192) (o : Fin 2048) :
    hiddenArr x c Wx Wf bf Wr br Wc bc (ix2 r o)
      = hidden (row x r) (row Wx o) (row Wf o) (row Wr o) (row Wc o) (bf (ix1 o)) (br (ix1 o)) (bc (ix1 o)) (c (ix2 r o)) := rfl

end Cert.Sru

end
-- ==== Proof.RefIsSpec.lean ====
/-
  The reference program computes the SRU cell of the specification, entry by entry.

  Read at the index (r, o), the reference forms four products of row r of the input with row o of a weight matrix
  (each a sum over the 2048 input features), adds to three of them entry o of a bias vector spread over the rows,
  spells the logistic function of the forget and of the reset pre-activation as 1 / (1 + e^(−t)) with the float literal
  1.0, and combines them in the order of the specification:

      c' = f · c (r, o) + (1 − f) · ⟨x r, W_x o⟩,        h = g · tanh c' + (1 − g) · (⟨x r, W_c o⟩ + b_c o).

  So the two result arrays of the reference are the arrays `cellArr` and `hiddenArr`. The only steps that are not an
  unfolding are: the index at which each product reads its operands is (r, k) on the left and (o, k) on the right, the
  index at which a spread bias is read is o, and the quotient 1 / (1 + e^(−t)) is the logistic function.
-/
import proofs.«131237_j41403484734021_2_alg».proof.Proof.Spec
import proofs.«131237_j41403484734021_2_alg».proof.Proof.Gen.ReferenceIdeal.Read

noncomputable section

namespace Cert.Sru.Ref

open Idealize.ShloMosaic Idealize.ShloMosaic.ValueIdx Cert.ReferenceIdeal Cert.ReferenceIdeal.Read

/-- A product at entry `(r, o)` reads its left operand at `(r, k)`. -/
theorem lrow (r : Fin 8192) (o k : Fin 2048) : lidx_main_v0 (ix2 r o) k = ix2 r k :=
  funext fun a => by match a with | ⟨0, _⟩ => rfl | ⟨1, _⟩ => rfl

/-- A product at entry `(r, o)` reads its right operand at `(o, k)`. -/
theorem rrow (r : Fin 8192) (o k : Fin 2048) : ridx_main_v0 (ix2 r o) k = ix2 o k :=
  funext fun a => by match a with | ⟨0, _⟩ => rfl | ⟨1, _⟩ => rfl

/-- Entry `(r, o)` of the product of the input with the weight matrix `x2` is the product of row `r` with row `o`. -/
theorem dot_v0 (x0 : (⟨S8192x2048, .f32⟩ : BufTy).Contents (Elt Ideal)) (x2 : (⟨S2048x2048, .f32⟩ : BufTy).Contents (Elt Ideal)) (r : Fin 8192) (o : Fin 2048) :
    val_main_v0 (F := Ideal) x0 x2 (ix2 r o) = dot (row x0 r) (row x2 o) := by
  rw [val_main_v0_apply]
  exact Finset.sum_congr rfl fun k _ => by
    rw [show lidx_main_v0 (ix2 r o) k = ix2 r k from lrow r o k,
      show ridx_main_v0 (ix2 r o) k = ix2 o k from rrow r o k]

/-- Entry `(r, o)` of the product of the input with the weight matrix `x3` is the product of row `r` with row `o`. -/
theorem dot_v1 (x0 : (⟨S8192x2048, .f32⟩ : BufTy).Contents (Elt Ideal)) (x3 : (⟨S2048x2048, .f32⟩ : BufTy).Contents (Elt Ideal)) (r : Fin 8192) (o : Fin 2048) :
    val_main_v1 (F := Ideal) x0 x3 (ix2 r o) = dot (row x0 r) (row x3 o) := by
  rw [val_main_v1_apply]
  exact Finset.sum_congr rfl fun k _ => by
    rw [show lidx_main_v1 (ix2 r o) k = ix2 r k from lrow r o k,
      show ridx_main_v1 (ix2 r o) k = ix2 o k from rrow r o k]

/-- Entry `(r, o)` of the product of the input with the weight matrix `x5` is the product of row `r` with row `o`. -/
theorem dot_v11 (x0 : (⟨S8192x2048, .f32⟩ : BufTy).Contents (Elt Ideal)) (x5 : (⟨S2048x2048, .f32⟩ : BufTy).Contents (Elt Ideal)) (r : Fin 8192) (o : Fin 2048) :
    val_main_v11 (F := Ideal) x0 x5 (ix2 r o) = dot (row x0 r) (row x5 o) := by
  rw [val_main_v11_apply]
  exact Finset.sum_congr rfl fun k _ => by
    rw [show lidx_main_v11 (ix2 r o) k = ix2 r k from lrow r o k,
      show ridx_main_v11 (ix2 r o) k = ix2 o k from rrow r o k]

/-- Entry `(r, o)` of the product of the input with the weight matrix `x7` is the product of row `r` with row `o`. -/
theorem dot_v26 (x0 : (⟨S8192x2048, .f32⟩ : BufTy).Contents (Elt Ideal)) (x7 : (⟨S2048x2048, .f32⟩ : BufTy).Contents (Elt Ideal)) (r : Fin 8192) (o : Fin 2048) :
    val_main_v26 (F := Ideal) x0 x7 (ix2 r o) = dot (row x0 r) (row x7 o) := by
  rw [val_main_v26_apply]
  exact Finset.sum_congr rfl fun k _ => by
    rw [show lidx_main_v26 (ix2 r o) k = ix2 r k from lrow r o k,
      show ridx_main_v26 (ix2 r o) k = ix2 o k from rrow r o k]

/-- A bias vector spread over the rows: entry `(r, o)` is entry `o` of the vector. -/
theorem bias_v3 (x4 : (⟨S2048, .f32⟩ : BufTy).Contents (Elt Ideal)) (r : Fin 8192) (o : Fin 2048) :
    val_main_v3 (F := Ideal) x4 (ix2 r o) = x4 (ix1 o) := by
  rw [val_main_v3_apply, val_main_v2_apply]
  exact congrArg x4 (funext fun a => by match a with | ⟨0, _⟩ => rfl)

/-- A bias vector spread over the rows: entry `(r, o)` is entry `o` of the vector. -/
theorem bias_v13 (x6 : (⟨S2048, .f32⟩ : BufTy).Contents (Elt Ideal)) (r : Fin 8192) (o : Fin 2048) :
    val_main_v13 (F := Ideal) x6 (ix2 r o) = x6 (ix1 o) := by
  rw [val_main_v13_apply, val_main_v12_apply]
  exact congrArg x6 (funext fun a => by match a with | ⟨0, _⟩ => rfl)

/-- A bias vector spread over the rows: entry `(r, o)` is entry `o` of the vector. -/
theorem bias_v28 (x8 : (⟨S2048, .f32⟩ : BufTy).Contents (Elt Ideal)) (r : Fin 8192) (o : Fin 2048) :
    val_main_v28 (F := Ideal) x8 (ix2 r o) = x8 (ix1 o) := by
  rw [val_main_v28_apply, val_main_v27_apply]
  exact congrArg x8 (funext fun a => by match a with | ⟨0, _⟩ => rfl)

/-! The literal `1.0` spread over the whole array. -/

theorem one_v7 (i : S8192x2048.Idx) : val_main_v7 (F := Ideal) i = one := by
  rw [val_main_v7_apply, val_main_cst_apply]; rfl

theorem one_v9 (i : S8192x2048.Idx) : val_main_v9 (F := Ideal) i = one := by
  rw [val_main_v9_apply, val_main_cst_0_apply]; rfl

theorem one_v17 (i : S8192x2048.Idx) : val_main_v17 (F := Ideal) i = one := by
  rw [val_main_v17_apply, val_main_cst_1_apply]; rfl

theorem one_v19 (i : S8192x2048.Idx) : val_main_v19 (F := Ideal) i = one := by
  rw [val_main_v19_apply, val_main_cst_2_apply]; rfl

theorem one_v22 (i : S8192x2048.Idx) : val_main_v22 (F := Ideal) i = one := by
  rw [val_main_v22_apply, val_main_cst_3_apply]; rfl

theorem one_v32 (i : S8192x2048.Idx) : val_main_v32 (F := Ideal) i = one := by
  rw [val_main_v32_apply, val_main_cst_4_apply]; rfl

/-- The forget gate at entry `(r, o)`. -/
theorem forget_gate (x0 : (⟨S8192x2048, .f32⟩ : BufTy).Contents (Elt Ideal)) (x3 : (⟨S2048x2048, .f32⟩ : BufTy).Contents (Elt Ideal)) (x4 : (⟨S2048, .f32⟩ : BufTy).Contents (Elt Ideal)) (r : Fin 8192) (o : Fin 2048) :
    val_main_v10 (F := Ideal) x0 x3 x4 (ix2 r o) = gate (row x0 r) (row x3 o) (x4 (ix1 o)) := by
  rw [val_main_v10_apply, one_v9, val_main_v8_apply, one_v7, val_main_v6_apply,
    val_main_v5_apply, val_main_v4_apply, dot_v1, bias_v3]
  simp only [Ideal.hostDivf_def, Ideal.addf_def, Ideal.hostUnary_exp_def, Ideal.hostNegf_def, Ideal.negf_def]
  exact div_one_add_exp_neg _

/-- The reset gate at entry `(r, o)`. -/
theorem reset_gate (x0 : (⟨S8192x2048, .f32⟩ : BufTy).Contents (Elt Ideal)) (x5 : (⟨S2048x2048, .f32⟩ : BufTy).Contents (Elt Ideal)) (x6 : (⟨S2048, .f32⟩ : BufTy).Contents (Elt Ideal)) (r : Fin 8192) (o : Fin 2048) :
    val_main_v20 (F := Ideal) x0 x5 x6 (ix2 r o) = gate (row x0 r) (row x5 o) (x6 (ix1 o)) := by
  rw [val_main_v20_apply, one_v19, val_main_v18_apply, one_v17, val_main_v16_apply,
    val_main_v15_apply, val_main_v14_apply, dot_v11, bias_v13]
  simp only [Ideal.hostDivf_def, Ideal.addf_def, Ideal.hostUnary_exp_def, Ideal.hostNegf_def, Ideal.negf_def]
  exact div_one_add_exp_neg _

/-- The new cell state of the reference at entry `(r, o)`. -/
theorem ref_cell_apply (x0 x1 : (⟨S8192x2048, .f32⟩ : BufTy).Contents (Elt Ideal)) (x2 x3 : (⟨S2048x2048, .f32⟩ : BufTy).Contents (Elt Ideal)) (x4 : (⟨S2048, .f32⟩ : BufTy).Contents (Elt Ideal)) (r : Fin 8192) (o : Fin 2048) :
    val_main_v25 (F := Ideal) x0 x1 x2 x3 x4 (ix2 r o)
      = cell (row x0 r) (row x2 o) (row x3 o) (x4 (ix1 o)) (x1 (ix2 r o)) := by
  rw [val_main_v25_apply, val_main_v21_apply, val_main_v24_apply, val_main_v23_apply, one_v22, forget_gate, dot_v0]
  rfl

/-- The new cell state of the reference is the specification's. -/
theorem ref_cell (x0 x1 : (⟨S8192x2048, .f32⟩ : BufTy).Contents (Elt Ideal)) (x2 x3 : (⟨S2048x2048, .f32⟩ : BufTy).Contents (Elt Ideal)) (x4 : (⟨S2048, .f32⟩ : BufTy).Contents (Elt Ideal)) :
    val_main_v25 (F := Ideal) x0 x1 x2 x3 x4 = cellArr x0 x1 x2 x3 x4 := by
  funext i
  obtain ⟨r, o, rfl⟩ : ∃ (r : Fin 8192) (o : Fin 2048), i = ix2 r o := ⟨i 0, i 1, eq_ix2 i⟩
  rw [ref_cell_apply, cellArr_apply]

/-- The new hidden state of the reference is the specification's. -/
theorem ref_hidden (x0 x1 : (⟨S8192x2048, .f32⟩ : BufTy).Contents (Elt Ideal)) (x2 x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) :
    val_main_v35 (F := Ideal) x0 x1 x2 x3 x4 x5 x6 x7 x8 = hiddenArr x0 x1 x2 x3 x4 x5 x6 x7 x8 := by
  funext i
  obtain ⟨r, o, rfl⟩ : ∃ (r : Fin 8192) (o : Fin 2048), i = ix2 r o := ⟨i 0, i 1, eq_ix2 i⟩
  rw [val_main_v35_apply, val_main_v31_apply, val_main_v30_apply, val_main_v34_apply, val_main_v33_apply, one_v32,
    val_main_v29_apply, reset_gate, ref_cell_apply, dot_v26, bias_v28, hiddenArr_apply]
  rfl

end Cert.Sru.Ref

end
-- ==== Proof.Entry.lean ====
/-
  The arrays the kernel's tiles are cut from, as the launch finds them. Before the launch the input and the four weight
  matrices are rounded to a narrower float format, which on the extended reals changes nothing: those five arrays are the
  arguments themselves. Each bias vector [2048] is re-laid as a one-row matrix [1, 2048], whose entry (0, o) is the
  vector's entry o. The carried cell state is passed as it is.
-/
import proofs.«131237_j41403484734021_2_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run

noncomputable section

namespace Cert.Sru.Entry

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The rounded input is the input. -/
theorem input (c : Dev nD) : (V m c main_v0 : S8192x2048.Idx → EReal) = m ((c : Thread nD τ).loc main_arg0) := by
  dsimp only [Gen.V, Gen.hostOps0]; after_results; rfl

/-- The rounded weight matrices are the weight matrices. -/
theorem weight_x (c : Dev nD) : (V m c main_v1 : S2048x2048.Idx → EReal) = m ((c : Thread nD τ).loc main_arg2) := by
  dsimp only [Gen.V, Gen.hostOps0]; after_results; rfl
theorem weight_f (c : Dev nD) : (V m c main_v2 : S2048x2048.Idx → EReal) = m ((c : Thread nD τ).loc main_arg3) := by
  dsimp only [Gen.V, Gen.hostOps0]; after_results; rfl
theorem weight_r (c : Dev nD) : (V m c main_v3 : S2048x2048.Idx → EReal) = m ((c : Thread nD τ).loc main_arg5) := by
  dsimp only [Gen.V, Gen.hostOps0]; after_results; rfl
theorem weight_c (c : Dev nD) : (V m c main_v4 : S2048x2048.Idx → EReal) = m ((c : Thread nD τ).loc main_arg7) := by
  dsimp only [Gen.V, Gen.hostOps0]; after_results; rfl

/-- Each bias as a one-row matrix, at (0, o): the bias vector's entry o. -/
theorem bias_f (c : Dev nD) (u : Fin 1) (o : Fin 2048) :
    (V m c main_v5 : S1x2048.Idx → EReal) (ix2 u o) = m ((c : Thread nD τ).loc main_arg4) (ix1 o) := by
  have e : (V m c main_v5 : S1x2048.Idx → EReal)
      = shapeCast S1x2048 (m ((c : Thread nD τ).loc main_arg4) : S2048.Idx → EReal) shapeCasts_S2048_S1x2048 := by
    dsimp only [Gen.V, Gen.hostOps0]; after_results; rfl
  rw [e]; exact shapeCast_a_1a_apply _ _ u o
theorem bias_r (c : Dev nD) (u : Fin 1) (o : Fin 2048) :
    (V m c main_v6 : S1x2048.Idx → EReal) (ix2 u o) = m ((c : Thread nD τ).loc main_arg6) (ix1 o) := by
  have e : (V m c main_v6 : S1x2048.Idx → EReal)
      = shapeCast S1x2048 (m ((c : Thread nD τ).loc main_arg6) : S2048.Idx → EReal) shapeCasts_S2048_S1x2048 := by
    dsimp only [Gen.V, Gen.hostOps0]; after_results; rfl
  rw [e]; exact shapeCast_a_1a_apply _ _ u o
theorem bias_c (c : Dev nD) (u : Fin 1) (o : Fin 2048) :
    (V m c main_v7 : S1x2048.Idx → EReal) (ix2 u o) = m ((c : Thread nD τ).loc main_arg8) (ix1 o) := by
  have e : (V m c main_v7 : S1x2048.Idx → EReal)
      = shapeCast S1x2048 (m ((c : Thread nD τ).loc main_arg8) : S2048.Idx → EReal) shapeCasts_S2048_S1x2048 := by
    dsimp only [Gen.V, Gen.hostOps0]; after_results; rfl
  rw [e]; exact shapeCast_a_1a_apply _ _ u o

/-- The carried cell state is passed as it is. -/
theorem carried (c : Dev nD) : V m c main_arg1 = m ((c : Thread nD τ).loc main_arg1) := V_main_arg1 m c

end Cert.Sru.Entry

end
-- ==== Proof.Reads.lean ====
/-
  What each tile holds, in terms of the arguments. The grid has 8 x 8 points; at the point with coordinates (a, b) the
  output tiles are rows 1024 a … 1024 a + 1023 and columns 256 b … 256 b + 255 of the two results. The input's tile is
  rows 1024 a … of the input, all 2048 features; each weight matrix's tile is rows 256 b … (the output units of the tile's
  columns), all features; each bias's tile is entries 256 b … of the bias; the carried state's tile is the output's own
  rows and columns. So entry (p, k) of the input's tile is entry (r, k) of the input for the output row r = 1024 a + p,
  entry (q, k) of a weight tile is entry (o, k) of that matrix for the output column o = 256 b + q, and entry q of a bias
  tile is entry o of that bias. The relations between the tiles' positions are decided once over the 64 grid points.
-/
import proofs.«131237_j41403484734021_2_alg».proof.Proof.Entry

noncomputable section

namespace Cert.Sru.Reads

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## Where each tile sits, relative to the hidden state's output tile -/

theorem index_input : ∀ t : Fin cfg0.N, win0_0.index t (0 : Fin 2) = win0_9.index t (0 : Fin 2) ∧ win0_0.index t (1 : Fin 2) = 0 :=
  (by decide +kernel : ∀ t : Fin grid0.N, _)
theorem index_carried : ∀ t : Fin cfg0.N, win0_1.index t (0 : Fin 2) = win0_9.index t (0 : Fin 2) ∧ win0_1.index t (1 : Fin 2) = win0_9.index t (1 : Fin 2) :=
  (by decide +kernel : ∀ t : Fin grid0.N, _)
theorem index_weight2 : ∀ t : Fin cfg0.N, win0_2.index t (0 : Fin 2) = win0_9.index t (1 : Fin 2) ∧ win0_2.index t (1 : Fin 2) = 0 :=
  (by decide +kernel : ∀ t : Fin grid0.N, _)
theorem index_weight3 : ∀ t : Fin cfg0.N, win0_3.index t (0 : Fin 2) = win0_9.index t (1 : Fin 2) ∧ win0_3.index t (1 : Fin 2) = 0 :=
  (by decide +kernel : ∀ t : Fin grid0.N, _)
theorem index_weight5 : ∀ t : Fin cfg0.N, win0_5.index t (0 : Fin 2) = win0_9.index t (1 : Fin 2) ∧ win0_5.index t (1 : Fin 2) = 0 :=
  (by decide +kernel : ∀ t : Fin grid0.N, _)
theorem index_weight7 : ∀ t : Fin cfg0.N, win0_7.index t (0 : Fin 2) = win0_9.index t (1 : Fin 2) ∧ win0_7.index t (1 : Fin 2) = 0 :=
  (by decide +kernel : ∀ t : Fin grid0.N, _)
theorem index_bias4 : ∀ t : Fin cfg0.N, win0_4.index t (0 : Fin 2) = 0 ∧ win0_4.index t (1 : Fin 2) = win0_9.index t (1 : Fin 2) :=
  (by decide +kernel : ∀ t : Fin grid0.N, _)
theorem index_bias6 : ∀ t : Fin cfg0.N, win0_6.index t (0 : Fin 2) = 0 ∧ win0_6.index t (1 : Fin 2) = win0_9.index t (1 : Fin 2) :=
  (by decide +kernel : ∀ t : Fin grid0.N, _)
theorem index_bias8 : ∀ t : Fin cfg0.N, win0_8.index t (0 : Fin 2) = 0 ∧ win0_8.index t (1 : Fin 2) = win0_9.index t (1 : Fin 2) :=
  (by decide +kernel : ∀ t : Fin grid0.N, _)

/-- The two output tiles sit at the same place, inside the 8 x 8 box of tiles. -/
theorem index_cell : ∀ t : Fin cfg0.N, win0_10.index t (0 : Fin 2) = win0_9.index t (0 : Fin 2) ∧ win0_10.index t (1 : Fin 2) = win0_9.index t (1 : Fin 2)
    ∧ win0_9.index t (0 : Fin 2) ≤ 7 ∧ win0_9.index t (1 : Fin 2) ≤ 7 :=
  (by decide +kernel : ∀ t : Fin grid0.N, _)

/-! ## The tiles' entries -/

/-- Entry (p, k) of the input's tile is entry (r, k) of the input, r the output row. -/
theorem input (c : Dev nD) (t : Fin cfg0.N) (p : Fin 1024) (k : Fin 2048) (r : Fin 8192)
    (hr : r.val = win0_9.index t (0 : Fin 2) * 1024 + p.val) :
    iblk m c 0 t (ix2 p k) = m ((c : Thread nD τ).loc main_arg0) (ix2 r k) := by
  obtain ⟨e0, e1⟩ := index_input t
  show V m c main_v0 (((cfg0.win 0).blk t).view.emb (ix2 p k)) = _
  rw [Entry.input]
  refine congrArg _ (funext fun a => Fin.ext ?_)
  match a with
  | ⟨0, _⟩ => show win0_0.index t (0 : Fin 2) * 1024 + 1 * p.val = r.val; omega
  | ⟨1, _⟩ => show win0_0.index t (1 : Fin 2) * 2048 + 1 * k.val = k.val; omega

/-- Entry (p, q) of the carried state's tile is entry (r, o) of the carried state. -/
theorem carried (c : Dev nD) (t : Fin cfg0.N) (p : Fin 1024) (q : Fin 256) (r : Fin 8192) (o : Fin 2048)
    (hr : r.val = win0_9.index t (0 : Fin 2) * 1024 + p.val) (ho : o.val = win0_9.index t (1 : Fin 2) * 256 + q.val) :
    iblk m c 1 t (ix2 p q) = m ((c : Thread nD τ).loc main_arg1) (ix2 r o) := by
  obtain ⟨e0, e1⟩ := index_carried t
  show V m c main_arg1 (((cfg0.win 1).blk t).view.emb (ix2 p q)) = _
  rw [Entry.carried]
  refine congrArg _ (funext fun a => Fin.ext ?_)
  match a with
  | ⟨0, _⟩ => show win0_1.index t (0 : Fin 2) * 1024 + 1 * p.val = r.val; omega
  | ⟨1, _⟩ => show win0_1.index t (1 : Fin 2) * 256 + 1 * q.val = o.val; omega

/-- Entry (q, k) of the tile of the weights of the candidate state is entry (o, k) of that matrix, o the output column. -/
theorem weight_x (c : Dev nD) (t : Fin cfg0.N) (q : Fin 256) (k : Fin 2048) (o : Fin 2048)
    (ho : o.val = win0_9.index t (1 : Fin 2) * 256 + q.val) :
    iblk m c 2 t (ix2 q k) = m ((c : Thread nD τ).loc main_arg2) (ix2 o k) := by
  obtain ⟨e0, e1⟩ := index_weight2 t
  show V m c main_v1 (((cfg0.win 2).blk t).view.emb (ix2 q k)) = _
  rw [Entry.weight_x]
  refine congrArg _ (funext fun a => Fin.ext ?_)
  match a with
  | ⟨0, _⟩ => show win0_2.index t (0 : Fin 2) * 256 + 1 * q.val = o.val; omega
  | ⟨1, _⟩ => show win0_2.index t (1 : Fin 2) * 2048 + 1 * k.val = k.val; omega

/-- The same for the forget gate's weights. -/
theorem weight_f (c : Dev nD) (t : Fin cfg0.N) (q : Fin 256) (k : Fin 2048) (o : Fin 2048)
    (ho : o.val = win0_9.index t (1 : Fin 2) * 256 + q.val) :
    iblk m c 3 t (ix2 q k) = m ((c : Thread nD τ).loc main_arg3) (ix2 o k) := by
  obtain ⟨e0, e1⟩ := index_weight3 t
  show V m c main_v2 (((cfg0.win 3).blk t).view.emb (ix2 q k)) = _
  rw [Entry.weight_f]
  refine congrArg _ (funext fun a => Fin.ext ?_)
  match a with
  | ⟨0, _⟩ => show win0_3.index t (0 : Fin 2) * 256 + 1 * q.val = o.val; omega
  | ⟨1, _⟩ => show win0_3.index t (1 : Fin 2) * 2048 + 1 * k.val = k.val; omega

/-- The same for the reset gate's weights. -/
theorem weight_r (c : Dev nD) (t : Fin cfg0.N) (q : Fin 256) (k : Fin 2048) (o : Fin 2048)
    (ho : o.val = win0_9.index t (1 : Fin 2) * 256 + q.val) :
    iblk m c 5 t (ix2 q k) = m ((c : Thread nD τ).loc main_arg5) (ix2 o k) := by
  obtain ⟨e0, e1⟩ := index_weight5 t
  show V m c main_v3 (((cfg0.win 5).blk t).view.emb (ix2 q k)) = _
  rw [Entry.weight_r]
  refine congrArg _ (funext fun a => Fin.ext ?_)
  match a with
  | ⟨0, _⟩ => show win0_5.index t (0 : Fin 2) * 256 + 1 * q.val = o.val; omega
  | ⟨1, _⟩ => show win0_5.index t (1 : Fin 2) * 2048 + 1 * k.val = k.val; omega

/-- The same for the weights of the converted input. -/
theorem weight_c (c : Dev nD) (t : Fin cfg0.N) (q : Fin 256) (k : Fin 2048) (o : Fin 2048)
    (ho : o.val = win0_9.index t (1 : Fin 2) * 256 + q.val) :
    iblk m c 7 t (ix2 q k) = m ((c : Thread nD τ).loc main_arg7) (ix2 o k) := by
  obtain ⟨e0, e1⟩ := index_weight7 t
  show V m c main_v4 (((cfg0.win 7).blk t).view.emb (ix2 q k)) = _
  rw [Entry.weight_c]
  refine congrArg _ (funext fun a => Fin.ext ?_)
  match a with
  | ⟨0, _⟩ => show win0_7.index t (0 : Fin 2) * 256 + 1 * q.val = o.val; omega
  | ⟨1, _⟩ => show win0_7.index t (1 : Fin 2) * 2048 + 1 * k.val = k.val; omega

/-- Entry q of the forget bias's tile is entry o of the bias. -/
theorem bias_f (c : Dev nD) (t : Fin cfg0.N) (q : Fin 256) (o : Fin 2048)
    (ho : o.val = win0_9.index t (1 : Fin 2) * 256 + q.val) :
    iblk m c 4 t (ix2 (0 : Fin 1) q) = m ((c : Thread nD τ).loc main_arg4) (ix1 o) := by
  obtain ⟨e0, e1⟩ := index_bias4 t
  show V m c main_v5 (((cfg0.win 4).blk t).view.emb (ix2 (0 : Fin 1) q)) = _
  have e : ((cfg0.win 4).blk t).view.emb (ix2 (0 : Fin 1) q) = ix2 (0 : Fin 1) o := funext fun a => Fin.ext (by
    match a with
    | ⟨0, _⟩ => show win0_4.index t (0 : Fin 2) * 1 + 1 * 0 = 0; omega
    | ⟨1, _⟩ => show win0_4.index t (1 : Fin 2) * 256 + 1 * q.val = o.val; omega)
  rw [e]
  exact Entry.bias_f m c 0 o

/-- The same for the reset bias. -/
theorem bias_r (c : Dev nD) (t : Fin cfg0.N) (q : Fin 256) (o : Fin 2048)
    (ho : o.val = win0_9.index t (1 : Fin 2) * 256 + q.val) :
    iblk m c 6 t (ix2 (0 : Fin 1) q) = m ((c : Thread nD τ).loc main_arg6) (ix1 o) := by
  obtain ⟨e0, e1⟩ := index_bias6 t
  show V m c main_v6 (((cfg0.win 6).blk t).view.emb (ix2 (0 : Fin 1) q)) = _
  have e : ((cfg0.win 6).blk t).view.emb (ix2 (0 : Fin 1) q) = ix2 (0 : Fin 1) o := funext fun a => Fin.ext (by
    match a with
    | ⟨0, _⟩ => show win0_6.index t (0 : Fin 2) * 1 + 1 * 0 = 0; omega
    | ⟨1, _⟩ => show win0_6.index t (1 : Fin 2) * 256 + 1 * q.val = o.val; omega)
  rw [e]
  exact Entry.bias_r m c 0 o

/-- The same for the bias of the converted input. -/
theorem bias_c (c : Dev nD) (t : Fin cfg0.N) (q : Fin 256) (o : Fin 2048)
    (ho : o.val = win0_9.index t (1 : Fin 2) * 256 + q.val) :
    iblk m c 8 t (ix2 (0 : Fin 1) q) = m ((c : Thread nD τ).loc main_arg8) (ix1 o) := by
  obtain ⟨e0, e1⟩ := index_bias8 t
  show V m c main_v7 (((cfg0.win 8).blk t).view.emb (ix2 (0 : Fin 1) q)) = _
  have e : ((cfg0.win 8).blk t).view.emb (ix2 (0 : Fin 1) q) = ix2 (0 : Fin 1) o := funext fun a => Fin.ext (by
    match a with
    | ⟨0, _⟩ => show win0_8.index t (0 : Fin 2) * 1 + 1 * 0 = 0; omega
    | ⟨1, _⟩ => show win0_8.index t (1 : Fin 2) * 256 + 1 * q.val = o.val; omega)
  rw [e]
  exact Entry.bias_c m c 0 o

end Cert.Sru.Reads

end
-- ==== Proof.Tile.lean ====
/-
  One tile of the kernel, entry by entry. A grid point holds a [1024, 2048] tile of the input (1024 rows, all features), a
  [256, 2048] tile of each weight matrix (256 output units, all features), a [1, 256] tile of each bias and a [1024, 256]
  tile of the carried cell state, and writes [1024, 256] tiles of the two results. Entry (p, q) of what it writes is the
  SRU cell's scalar function of row p of the input tile, row q of each weight tile, entry q of each bias tile and entry
  (p, q) of the carried state's tile: each matrix product into a zero accumulator, contracted over the second axis of both
  operands, is the row product; a [1, 256] bias repeated over 1024 rows reads its one row; everything else is entry by entry.
-/
import proofs.«131237_j41403484734021_2_alg».proof.Proof.Spec
import proofs.«131237_j41403484734021_2_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.Sru.Tile

open Idealize.ShloMosaic Idealize.ShloMosaic.ValueIdx Cert.KernelIdeal Cert.KernelIdeal.Gen Cert.Sru

local notation "D" => dot_S1024x2048_S256x2048_S1024x256_1_1_0_0_n_n

/-- The left operand's row coordinate is the output's row. -/
theorem lhs_row (j : S1024x256.Idx) (k : (D).contr.Idx) : ((D).lhsIdx j k 0).val = (j 0).val := by
  unfold DotDims.lhsIdx
  rw [dif_neg (show ¬(0 : Fin S1024x2048.rank) ∈ (D).lhsBatch by decide),
    dif_pos (show (0 : Fin S1024x2048.rank) ∈ (D).lhsNonContracting by decide)]
  rfl

/-- The right operand's row coordinate is the output's column. -/
theorem rhs_row (j : S1024x256.Idx) (k : (D).contr.Idx) : ((D).rhsIdx j k 0).val = (j 1).val := by
  unfold DotDims.rhsIdx
  rw [dif_neg (show ¬(0 : Fin S256x2048.rank) ∈ (D).rhsBatch by decide),
    dif_pos (show (0 : Fin S256x2048.rank) ∈ (D).rhsNonContracting by decide)]
  rfl

/-- A tile's matrix product into the zero accumulator, at (p, q): row p of the left tile times row q of the right tile. -/
theorem matmul_tile (x : FVec Ideal S1024x2048 .bf16) (w : FVec Ideal S256x2048 .bf16) (p : Fin 1024) (q : Fin 256) :
    matmul (F := Ideal) (φ₁ := .bf16) (φ₂ := .bf16) (D) none x w (constant S1024x256 .f32 0x00000000#32) (ix2 p q) = dot (row x p) (row w q) := by
  simp only [matmul]
  rw [Ideal.matmul_constant_zero_apply, ← Equiv.sum_comp (contrEquiv1 (D) 2048 rfl rfl).symm]
  unfold dot
  refine Finset.sum_congr rfl fun k _ => ?_
  have hk := contrEquiv1_symm_val (D) 2048 rfl rfl k
  have el : (D).lhsIdx (ix2 p q) ((contrEquiv1 (D) 2048 rfl rfl).symm k) = ix2 p k := funext fun a => Fin.ext (by
    match a with
    | ⟨0, _⟩ => exact lhs_row _ _
    | ⟨1, _⟩ => exact ((D).lhsIdx_val_of_single rfl _ _).trans hk)
  have er : (D).rhsIdx (ix2 p q) ((contrEquiv1 (D) 2048 rfl rfl).symm k) = ix2 q k := funext fun a => Fin.ext (by
    match a with
    | ⟨0, _⟩ => exact rhs_row _ _
    | ⟨1, _⟩ => exact ((D).rhsIdx_val_of_single rfl _ _).trans hk)
  rw [el, er]

/-- A [1, 256] bias tile repeated over the rows, at (p, q): its entry q. -/
theorem bias_tile (b : Vec Ideal S1x256 .f32) (p : Fin 1024) (q : Fin 256) :
    broadcastTo S1024x256 (shapeCast S1x256 b shapeCasts_S1x256_S1x256) broadcasts_S1x256_S1024x256 (ix2 p q)
      = b (ix2 (0 : Fin 1) q) := by
  rw [shapeCast_self]
  exact broadcastTo_1b_ab_apply b _ p q

/-- The new cell state's tile at (p, q). -/
theorem cell_tile (v0 : Vec Ideal S1024x2048 .bf16) (v2 v5 : Vec Ideal S256x2048 .bf16) (v14 : Vec Ideal S1x256 .f32)
    (v24 : Vec Ideal S1024x256 .f32) (p : Fin 1024) (q : Fin 256) :
    k0_pay4 v0 v2 v5 v14 v24 (ix2 p q)
      = cell (row v0 p) (row v2 q) (row v5 q) (v14 (ix2 (0 : Fin 1) q)) (v24 (ix2 p q)) := by
  unfold k0_pay4 k0_pay2
  simp only [shapeCast_self]
  show Ideal.logistic (matmul (F := Ideal) (φ₁ := .bf16) (φ₂ := .bf16) (D) none v0 v5 (constant S1024x256 .f32 0x00000000#32) (ix2 p q)
          + broadcastTo S1024x256 v14 broadcasts_S1x256_S1024x256 (ix2 p q)) * v24 (ix2 p q)
      + (one - Ideal.logistic (matmul (F := Ideal) (φ₁ := .bf16) (φ₂ := .bf16) (D) none v0 v5 (constant S1024x256 .f32 0x00000000#32) (ix2 p q)
          + broadcastTo S1024x256 v14 broadcasts_S1x256_S1024x256 (ix2 p q)))
        * matmul (F := Ideal) (φ₁ := .bf16) (φ₂ := .bf16) (D) none v0 v2 (constant S1024x256 .f32 0x00000000#32) (ix2 p q) = _
  rw [matmul_tile, matmul_tile, broadcastTo_1b_ab_apply]
  rfl

/-- The reset gate's tile at (p, q). -/
theorem gate_tile (v0 : Vec Ideal S1024x2048 .bf16) (v8 : Vec Ideal S256x2048 .bf16) (v19 : Vec Ideal S1x256 .f32)
    (p : Fin 1024) (q : Fin 256) :
    k0_pay3 v0 v8 v19 (ix2 p q) = gate (row v0 p) (row v8 q) (v19 (ix2 (0 : Fin 1) q)) := by
  unfold k0_pay3 k0_pay2
  simp only [shapeCast_self]
  show Ideal.logistic (matmul (F := Ideal) (φ₁ := .bf16) (φ₂ := .bf16) (D) none v0 v8 (constant S1024x256 .f32 0x00000000#32) (ix2 p q)
          + broadcastTo S1024x256 v19 broadcasts_S1x256_S1024x256 (ix2 p q)) = _
  rw [matmul_tile, broadcastTo_1b_ab_apply]
  rfl

/-- The converted input's tile at (p, q): a row product plus a bias. -/
theorem conv_tile (v0 : Vec Ideal S1024x2048 .bf16) (v11 : Vec Ideal S256x2048 .bf16) (v30 : Vec Ideal S1x256 .f32)
    (p : Fin 1024) (q : Fin 256) :
    k0_pay5 v0 v11 v30 (ix2 p q) = dot (row v0 p) (row v11 q) + v30 (ix2 (0 : Fin 1) q) := by
  unfold k0_pay5 k0_pay2
  simp only [shapeCast_self]
  show matmul (F := Ideal) (φ₁ := .bf16) (φ₂ := .bf16) (D) none v0 v11 (constant S1024x256 .f32 0x00000000#32) (ix2 p q)
          + broadcastTo S1024x256 v30 broadcasts_S1x256_S1024x256 (ix2 p q) = _
  rw [matmul_tile, broadcastTo_1b_ab_apply]

/-- The new hidden state's tile at (p, q). -/
theorem hidden_tile (v0 : Vec Ideal S1024x2048 .bf16) (v2 v5 v8 v11 : Vec Ideal S256x2048 .bf16)
    (v14 v19 v30 : Vec Ideal S1x256 .f32) (v24 : Vec Ideal S1024x256 .f32) (p : Fin 1024) (q : Fin 256) :
    k0_pay1 (k0_pay3 v0 v8 v19) (k0_pay5 v0 v11 v30) (k0_pay6 v0 v2 v5 v14 v24) (ix2 p q)
      = hidden (row v0 p) (row v2 q) (row v5 q) (row v8 q) (row v11 q)
          (v14 (ix2 (0 : Fin 1) q)) (v19 (ix2 (0 : Fin 1) q)) (v30 (ix2 (0 : Fin 1) q)) (v24 (ix2 p q)) := by
  show k0_pay3 v0 v8 v19 (ix2 p q) * Ideal.tanh (k0_pay4 v0 v2 v5 v14 v24 (ix2 p q))
      + (one - k0_pay3 v0 v8 v19 (ix2 p q)) * k0_pay5 v0 v11 v30 (ix2 p q) = _
  rw [gate_tile, cell_tile, conv_tile]
  rfl

end Cert.Sru.Tile

end
-- ==== Proof.Cover.lean ====
/-
  The output tiles cover the output arrays.

  The kernel runs over a grid of 8 × 8 = 64 points. At the point with grid coordinates (p, q) each of the two output
  windows writes back one tile of 1024 rows and 256 columns of an array of 8192 rows and 2048 columns: the tile with
  block index (p, q), that is rows 1024·p … 1024·p + 1023 and columns 256·q … 256·q + 255. Because 8 · 1024 = 8192 and
  8 · 256 = 2048, an entry (a, b) of the array has a / 1024 < 8 and b / 256 < 8, lies in the tile with block index
  (a / 1024, b / 256) (division with remainder on each axis), and that block index is some point's. So every entry of
  each output array lies in the tile of a point that writes back.
-/
import proofs.«131237_j41403484734021_2_alg».proof.Proof.Gen.KernelIdeal.Value
import Idealize.ShloMosaic.Lib.Pipeline.Value

noncomputable section

namespace Cert.Sru.Cover

open Cert.KernelIdeal Cert.KernelIdeal.Gen Idealize.ShloMosaic

/-! ## Output window 9: the new hidden state -/

/-- Every pair (p, q) with p, q < 8 is the block index of some grid point (decided over the 64 points). -/
theorem tile_onto9 : ∀ p q : Fin 8, ∃ t : Fin cfg0.N, win0_9.index t = ![p.val, q.val] :=
  (by decide +kernel : ∀ p q : Fin 8, ∃ t : Fin grid0.N, win0_9.index t = ![p.val, q.val])

/-- An entry of the array is in the tile of point `t` iff, on each axis, its coordinate is in the tile's range: the
    tile's extent on that axis times the block index, and the extent many coordinates from there. -/
theorem mem_tile9 (t : Fin cfg0.N) (i : S8192x2048.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v8_0).slice (win0_9.rect t)).set ↔ _
  rw [View.set_slice_whole, Rect.mem_set_unit]
  exact Iff.rfl

/-- Every entry (a, b) of the array is in the tile of a point that writes back: the point whose block index is
    (a / 1024, b / 256). -/
theorem cover9 (i : S8192x2048.Idx) :
    ∃ t : Fin cfg0.N, (cfg0.win 9).flush t = true ∧ i ∈ ((cfg0.win 9).blk t).view.set := by
  have hrow : (i 0).val < 8192 := (i 0).isLt
  have hcol : (i 1).val < 2048 := (i 1).isLt
  obtain ⟨t, ht⟩ := tile_onto9 ⟨(i 0).val / 1024, by omega⟩ ⟨(i 1).val / 256, by omega⟩
  have hp : win0_9.index t (0 : Fin 2) = (i 0).val / 1024 := congrFun ht 0
  have hq : win0_9.index t (1 : Fin 2) = (i 1).val / 256 := congrFun ht 1
  refine ⟨t, flush0_9 t, ?_⟩
  rw [mem_tile9]
  intro a
  match a with
  | ⟨0, _⟩ =>
    show win0_9.index t (0 : Fin 2) * 1024 ≤ (i 0).val ∧ (i 0).val < win0_9.index t (0 : Fin 2) * 1024 + 1024
    omega
  | ⟨1, _⟩ =>
    show win0_9.index t (1 : Fin 2) * 256 ≤ (i 1).val ∧ (i 1).val < win0_9.index t (1 : Fin 2) * 256 + 256
    omega

/-! ## Output window 10: the new cell state -/

/-- Every pair (p, q) with p, q < 8 is the block index of some grid point (decided over the 64 points). -/
theorem tile_onto10 : ∀ p q : Fin 8, ∃ t : Fin cfg0.N, win0_10.index t = ![p.val, q.val] :=
  (by decide +kernel : ∀ p q : Fin 8, ∃ t : Fin grid0.N, win0_10.index t = ![p.val, q.val])

/-- An entry of the array is in the tile of point `t` iff, on each axis, its coordinate is in the tile's range: the
    tile's extent on that axis times the block index, and the extent many coordinates from there. -/
theorem mem_tile10 (t : Fin cfg0.N) (i : S8192x2048.Idx) :
    i ∈ ((cfg0.win 10).blk t).view.set ↔ ∀ a : Fin 2, win0_10.index t a * S1024x256.size a ≤ (i a).val ∧ (i a).val < win0_10.index t a * S1024x256.size a + S1024x256.size a := by
  show i ∈ ((View.whole main_v8_1).slice (win0_10.rect t)).set ↔ _
  rw [View.set_slice_whole, Rect.mem_set_unit]
  exact Iff.rfl

/-- Every entry (a, b) of the array is in the tile of a point that writes back: the point whose block index is
    (a / 1024, b / 256). -/
theorem cover10 (i : S8192x2048.Idx) :
    ∃ t : Fin cfg0.N, (cfg0.win 10).flush t = true ∧ i ∈ ((cfg0.win 10).blk t).view.set := by
  have hrow : (i 0).val < 8192 := (i 0).isLt
  have hcol : (i 1).val < 2048 := (i 1).isLt
  obtain ⟨t, ht⟩ := tile_onto10 ⟨(i 0).val / 1024, by omega⟩ ⟨(i 1).val / 256, by omega⟩
  have hp : win0_10.index t (0 : Fin 2) = (i 0).val / 1024 := congrFun ht 0
  have hq : win0_10.index t (1 : Fin 2) = (i 1).val / 256 := congrFun ht 1
  refine ⟨t, flush0_10 t, ?_⟩
  rw [mem_tile10]
  intro a
  match a with
  | ⟨0, _⟩ =>
    show win0_10.index t (0 : Fin 2) * 1024 ≤ (i 0).val ∧ (i 0).val < win0_10.index t (0 : Fin 2) * 1024 + 1024
    omega
  | ⟨1, _⟩ =>
    show win0_10.index t (1 : Fin 2) * 256 ≤ (i 1).val ∧ (i 1).val < win0_10.index t (1 : Fin 2) * 256 + 256
    omega

end Cert.Sru.Cover

end
-- ==== Proof.Blocks.lean ====
/-
  From tiles to arrays. Each grid point writes back one [1024, 256] tile of each result, and that tile is the tile of the
  specification's array at the same place: entry (p, q) of the tile at the point with coordinates (a, b) is the SRU cell's
  scalar function of row p of the input's tile, row q of each weight tile, entry q of each bias tile and entry (p, q) of the
  carried state's tile, which are row 1024 a + p of the input, row 256 b + q of each weight matrix, entry 256 b + q of each
  bias and entry (1024 a + p, 256 b + q) of the carried state: the specification's entry (1024 a + p, 256 b + q). The 64
  tiles cover each result array, so after the run the two result arrays ARE the specification's two arrays.
-/
import proofs.«131237_j41403484734021_2_alg».proof.Proof.Reads
import proofs.«131237_j41403484734021_2_alg».proof.Proof.Tile
import proofs.«131237_j41403484734021_2_alg».proof.Proof.Cover
import proofs.«131237_j41403484734021_2_alg».proof.Proof.Gen.KernelIdeal.Value

noncomputable section

namespace Cert.Sru.Result

open Idealize.ShloMosaic Idealize.ShloMosaic.TcCoe Idealize.ShloMosaic.ValueIdx Idealize.SL.Sem
open Idealize.ShloMosaic.Pipeline (Dat)
open Cert.KernelIdeal Cert.KernelIdeal.Gen Cert.Sru

variable (m : (ℓ : Loc nD τ sig) → Buf (Elt Ideal) ℓ) (ρ : Dev nD → PrngReg)

/-- The specification's new hidden state of core `c`'s argument arrays. -/
abbrev hiddenOf (c : Dev nD) : S8192x2048.Idx → EReal :=
  hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The specification's new cell state of core `c`'s argument arrays. -/
abbrev cellOf (c : Dev nD) : S8192x2048.Idx → EReal :=
  cellArr (m ((c : Thread nD τ).loc main_arg0)) (m ((c : Thread nD τ).loc main_arg1)) (m ((c : Thread nD τ).loc main_arg2)) (m ((c : Thread nD τ).loc main_arg3)) (m ((c : Thread nD τ).loc main_arg4))

theorem zero_offsets : (![0, 0] : Fin 2 → Nat) = fun _ => 0 := funext fun a => by fin_cases a <;> rfl

/-- The scalar functions at equal arguments. -/
theorem cell_congr {u u' wx wx' wf wf' : Fin 2048 → EReal} {bf bf' s s' : EReal}
    (h0 : u = u') (h1 : wx = wx') (h2 : wf = wf') (h3 : bf = bf') (h4 : s = s') :
    cell u wx wf bf s = cell u' wx' wf' bf' s' := by rw [h0, h1, h2, h3, h4]

theorem hidden_congr {u u' wx wx' wf wf' wr wr' wc wc' : Fin 2048 → EReal} {bf bf' br br' bc bc' s s' : EReal}
    (h0 : u = u') (h1 : wx = wx') (h2 : wf = wf') (h3 : wr = wr') (h4 : wc = wc') (h5 : bf = bf') (h6 : br = br') (h7 : bc = bc')
    (h8 : s = s') : hidden u wx wf wr wc bf br bc s = hidden u' wx' wf' wr' wc' bf' br' bc' s' := by
  rw [h0, h1, h2, h3, h4, h5, h6, h7, h8]

/-- What point `t` writes back to the new cell state is the tile of the specification's array at the point's place. -/
theorem flushed_cell (c : Dev nD) (t : Fin cfg0.N) :
    (dats m 0 c).flushed 10 t = ((cfg0.win 10).blk t).view.read (Elt Ideal) (cellOf m c) := by
  rw [Value.flushed10]
  unfold out0_10
  rw [View.canon_unit_zero zero_offsets]
  simp only [View.ld_unit_zero (S := S1024x2048) zero_offsets, View.ld_unit_zero (S := S256x2048) zero_offsets,
    View.ld_unit_zero (S := S1x256) zero_offsets, View.ld_unit_zero (S := S1024x256) zero_offsets]
  funext j
  obtain ⟨p, q, rfl⟩ : ∃ (p : Fin 1024) (q : Fin 256), j = ix2 p q := ⟨j 0, j 1, eq_ix2 j⟩
  obtain ⟨e0, e1, -, -⟩ := Reads.index_cell t
  have hr : ((((cfg0.win 10).blk t).view.emb (ix2 p q)) 0).val = win0_9.index t (0 : Fin 2) * 1024 + p.val := by
    show win0_10.index t (0 : Fin 2) * 1024 + 1 * p.val = _; omega
  have ho : ((((cfg0.win 10).blk t).view.emb (ix2 p q)) 1).val = win0_9.index t (1 : Fin 2) * 256 + q.val := by
    show win0_10.index t (1 : Fin 2) * 256 + 1 * q.val = _; omega
  show k0_pay4 (iblk m c 0 t) (iblk m c 2 t) (iblk m c 3 t) (iblk m c 4 t) (iblk m c 1 t) (ix2 p q)
      = cellOf m c (((cfg0.win 10).blk t).view.emb (ix2 p q))
  refine (Tile.cell_tile (iblk m c 0 t) (iblk m c 2 t) (iblk m c 3 t) (iblk m c 4 t) (iblk m c 1 t) p q).trans ?_
  exact cell_congr (funext fun k => Reads.input m c t p k _ hr) (funext fun k => Reads.weight_x m c t q k _ ho)
    (funext fun k => Reads.weight_f m c t q k _ ho) (Reads.bias_f m c t q _ ho)
    ((Reads.carried m c t p q _ _ hr ho).trans (congrArg _ (eq_ix2 _).symm))

/-- What point `t` writes back to the new hidden state likewise. -/
theorem flushed_hidden (c : Dev nD) (t : Fin cfg0.N) :
    (dats m 0 c).flushed 9 t = ((cfg0.win 9).blk t).view.read (Elt Ideal) (hiddenOf m c) := by
  rw [Value.flushed9]
  unfold out0_9
  rw [View.canon_unit_zero zero_offsets]
  simp only [View.ld_unit_zero (S := S1024x2048) zero_offsets, View.ld_unit_zero (S := S256x2048) zero_offsets,
    View.ld_unit_zero (S := S1x256) zero_offsets, View.ld_unit_zero (S := S1024x256) zero_offsets]
  funext j
  obtain ⟨p, q, rfl⟩ : ∃ (p : Fin 1024) (q : Fin 256), j = ix2 p q := ⟨j 0, j 1, eq_ix2 j⟩
  have hr : ((((cfg0.win 9).blk t).view.emb (ix2 p q)) 0).val = win0_9.index t (0 : Fin 2) * 1024 + p.val := by
    show win0_9.index t (0 : Fin 2) * 1024 + 1 * p.val = _; omega
  have ho : ((((cfg0.win 9).blk t).view.emb (ix2 p q)) 1).val = win0_9.index t (1 : Fin 2) * 256 + q.val := by
    show win0_9.index t (1 : Fin 2) * 256 + 1 * q.val = _; omega
  show k0_pay1 (k0_pay3 (iblk m c 0 t) (iblk m c 5 t) (iblk m c 6 t)) (k0_pay5 (iblk m c 0 t) (iblk m c 7 t) (iblk m c 8 t))
        (k0_pay6 (iblk m c 0 t) (iblk m c 2 t) (iblk m c 3 t) (iblk m c 4 t) (iblk m c 1 t)) (ix2 p q)
      = hiddenOf m c (((cfg0.win 9).blk t).view.emb (ix2 p q))
  refine (Tile.hidden_tile (iblk m c 0 t) (iblk m c 2 t) (iblk m c 3 t) (iblk m c 5 t) (iblk m c 7 t)
    (iblk m c 4 t) (iblk m c 6 t) (iblk m c 8 t) (iblk m c 1 t) p q).trans ?_
  exact hidden_congr (funext fun k => Reads.input m c t p k _ hr) (funext fun k => Reads.weight_x m c t q k _ ho)
    (funext fun k => Reads.weight_f m c t q k _ ho) (funext fun k => Reads.weight_r m c t q k _ ho)
    (funext fun k => Reads.weight_c m c t q k _ ho) (Reads.bias_f m c t q _ ho) (Reads.bias_r m c t q _ ho)
    (Reads.bias_c m c t q _ ho) ((Reads.carried m c t p q _ _ hr ho).trans (congrArg _ (eq_ix2 _).symm))

/-- After the run the new hidden state's array is the specification's. -/
theorem final_hidden (c : Dev nD) : (dats m 0 c).arrAt 9 cfg0.N = hiddenOf m c :=
  (dats m 0 c).arrAt_eq_of_cover 9 (hiddenOf m c) (fun t _ => flushed_hidden m c t) Cover.cover9

/-- After the run the new cell state's array is the specification's. -/
theorem final_cell (c : Dev nD) : (dats m 0 c).arrAt 10 cfg0.N = cellOf m c :=
  (dats m 0 c).arrAt_eq_of_cover 10 (cellOf m c) (fun t _ => flushed_cell m c t) Cover.cover10

/-- The kernel's run: every weakly fair execution ends with the two results at the specification's arrays of the
    arguments, and the arguments unchanged. -/
theorem run : θ_run defs (onTc (τ := τ) (main (F := Ideal))) ⟨m, fun _ => 0, ρ⟩ fun r => ∀ c : Dev nD,
      r.2.mem ((c : Thread nD τ).loc main_v8_0) = hiddenOf m c
      ∧ r.2.mem ((c : Thread nD τ).loc main_v8_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final_hidden m c), (h c).2.1.trans (final_cell m c), (h c).2.2⟩)
    (Value.run_blocks m ρ)

end Cert.Sru.Result

end
-- ==== Proof.lean ====
/-
  The SRU cell kernel against its jnp reference, on the extended reals.

  Both programs compute, entry by entry, the gates f = σ (⟨x r, W_f o⟩ + b_f o) and g = σ (⟨x r, W_r o⟩ + b_r o), the new
  cell state c' = f · c + (1 − f) · ⟨x r, W_x o⟩ and the new hidden state h = g · tanh c' + (1 − g) · (⟨x r, W_c o⟩ + b_c o)
  (Proof/Spec.lean), in the same order of operations. The reference does it on whole arrays, with each product a contraction
  over the 2048 input features and the logistic function spelt as 1 / (1 + e^(−t)) (Proof/RefIsSpec.lean). The kernel rounds
  the input and the weights to a narrower format first, which is the identity on the extended reals (Proof/Entry.lean), and
  computes 64 tiles of [1024, 256] entries, each from 1024 rows of the input and 256 rows of each weight matrix
  (Proof/Tile.lean, Proof/Reads.lean), which together cover the results (Proof/Cover.lean, Proof/Blocks.lean). No law of
  arithmetic beyond the reading of the logistic function is needed, so the inputs' finiteness is never used.
  The three programs' runs and the unchanged arguments are the generated frame certificates and the generated run of the
  reference; the idealized kernel is the kernel's own text, so there is nothing to preserve.
-/
import proofs.«131237_j41403484734021_2_alg».proof.Defs
import proofs.«131237_j41403484734021_2_alg».proof.Proof.Gen.Kernel
import proofs.«131237_j41403484734021_2_alg».proof.Proof.Gen.Kernel.Skeleton
import proofs.«131237_j41403484734021_2_alg».proof.Proof.Gen.Kernel.Launch
import proofs.«131237_j41403484734021_2_alg».proof.Proof.Gen.Kernel.Points
import proofs.«131237_j41403484734021_2_alg».proof.Proof.Gen.Kernel.Frame
import proofs.«131237_j41403484734021_2_alg».proof.Proof.Gen.KernelIdeal
import proofs.«131237_j41403484734021_2_alg».proof.Proof.Gen.KernelIdeal.Skeleton
import proofs.«131237_j41403484734021_2_alg».proof.Proof.Gen.KernelIdeal.Launch
import proofs.«131237_j41403484734021_2_alg».proof.Proof.Gen.KernelIdeal.Points
import proofs.«131237_j41403484734021_2_alg».proof.Proof.Gen.KernelIdeal.Frame
import proofs.«131237_j41403484734021_2_alg».proof.Proof.Gen.ReferenceIdeal
import proofs.«131237_j41403484734021_2_alg».proof.Proof.Gen.Pre_finite_inputs
import proofs.«131237_j41403484734021_2_alg».proof.Proof.Gen.KernelIdeal.Value
import proofs.«131237_j41403484734021_2_alg».proof.Proof.Gen.ReferenceIdeal.Run
import proofs.«131237_j41403484734021_2_alg».proof.Proof.Gen.ReferenceIdeal.Read
import proofs.«131237_j41403484734021_2_alg».proof.Proof.RefIsSpec
import proofs.«131237_j41403484734021_2_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the specification's two arrays of arguments that agree. -/
theorem algebraic : Cert.algebraic_KernelIdeal_ReferenceIdeal := by
  intro m ρ m' ρ' _ hagree
  refine ⟨fun c => Cert.Sru.Result.hiddenOf m c, fun c => Cert.Sru.Result.cellOf m c, Cert.Sru.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v35_eq, Cert.Sru.Ref.ref_hidden, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  · rw [Cert.ReferenceIdeal.Read.val_main_v25_eq, Cert.Sru.Ref.ref_cell, (hagree c).1, (hagree c).2.1, (hagree c).2.2.1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
